-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg4 : FVec F S2048 .f32) (main_v33 : IVec S_ 1) : IVec S_ 1 :=
  let main_cst_12 : FVec F S_ .f32 := constant S_ .f32 0x00000000#32
  let main_v34 : FVec F S2048 .f32 := broadcastInDim S2048 ![] bcast_S_S2048 main_cst_12
  let main_v35 : IVec S2048 1 := cmpf .oge main_arg4 main_v34
  let main_c_13 : IVec S_ 1 := constantI S_ 1 1#1
  let main_v36 : IVec S_ 1 := (fun x v => Host.reduce IntOp.andi x v reducesTo_S2048_S_d0 h_S_) main_v35 main_c_13
  let main_v37 : IVec S_ 1 := andi main_v33 main_v36
  main_v37

def fn_part1 {F : FTy → Type} [FloatOps F] (main_arg4 : FVec F S2048 .f32) (main_arg5 : FVec F S2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg4 main_v33

def fn {F : FTy → Type} [FloatOps F] (main_arg0 : FVec F S4096x2048 .f32) (main_arg1 : FVec F S2048x2048 .f32) (main_arg2 : FVec F S2048 .f32) (main_arg3 : FVec F S2048 .f32) (main_arg4 : FVec F S2048 .f32) (main_arg5 : FVec F S2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩

abbrev nBuf : Space → Nat
  | .hbm => 23
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S2048x2048, .bf16⟩
  | .hbm, ⟨22, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2048 : S_.BroadcastsInDim S2048 (![] : Fin 0 → Fin S2048.rank)
  shapeCasts_S2048_S1x2048 : S2048.ShapeCasts S1x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S2048 : S_.BroadcastsInDim S2048 (![] : Fin 0 → Fin S2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.BodyEntry.lean ====
/-
  What the body stores, read at one entry.

  At a grid point the body holds a block of 256 rows of the activations, the whole weight matrix, and the combined scale and
  combined shift as single rows. It multiplies the activations by the weights contracting the LAST axis of both — entry
  `(p, q)` of the product is the sum over `k` of `x (p, k) · w (q, k)`, the weight read by ROW `q` —, scales column `q` by
  the scale row's entry `q` and adds the shift row's entry `q`. The roundings to a shorter format on the way into the
  product are the identity on extended reals, the accumulator starts at the word for zero, and the two rows are repeated
  over the 256 rows of the block.
-/
import proofs.«179150_j3556232921810_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.BodyEntry

open Idealize.ShloMosaic Idealize.ShloMosaic.ValueIdx Cert.KernelIdeal Cert.KernelIdeal.Gen

/-- The record of the body's product: a `256 × 2048` block times the `2048 × 2048` weights, last axes contracted. -/
abbrev D := dot_S256x2048_S2048x2048_S256x2048_1_1_0_0_n_n

theorem lhs_row (i : S256x2048.Idx) (k : D.contr.Idx) : (D.lhsIdx i k 0).val = (i 0).val := by
  unfold DotDims.lhsIdx
  rw [dif_neg (show ¬(0 : Fin S256x2048.rank) ∈ D.lhsBatch by decide),
    dif_pos (show (0 : Fin S256x2048.rank) ∈ D.lhsNonContracting by decide)]
  rfl

theorem lhs_contr (i : S256x2048.Idx) (k : D.contr.Idx) : (D.lhsIdx i k 1).val = (k ⟨0, by decide⟩).val :=
  D.lhsIdx_val_of_single rfl i k

theorem rhs_row (i : S256x2048.Idx) (k : D.contr.Idx) : (D.rhsIdx i k 0).val = (i 1).val := by
  unfold DotDims.rhsIdx
  rw [dif_neg (show ¬(0 : Fin S2048x2048.rank) ∈ D.rhsBatch by decide),
    dif_pos (show (0 : Fin S2048x2048.rank) ∈ D.rhsNonContracting by decide)]
  rfl

theorem rhs_contr (i : S256x2048.Idx) (k : D.contr.Idx) : (D.rhsIdx i k 1).val = (k ⟨0, by decide⟩).val :=
  D.rhsIdx_val_of_single rfl i k

/-- The product's contraction at `(p, q)` is the sum over `k` of the left operand at `(p, k)` times the right at `(q, k)`. -/
theorem contraction (A : S256x2048.Idx → EReal) (B : S2048x2048.Idx → EReal) (p : Fin 256) (q : Fin 2048) :
    ∑ k : D.contr.Idx, A (D.lhsIdx (ix2 p q) k) * B (D.rhsIdx (ix2 p q) k) = ∑ k : Fin 2048, A (ix2 p k) * B (ix2 q k) := by
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 2048 rfl rfl).symm k) = ix2 q k := funext fun a => Fin.ext (by
    match a with
    | ⟨0, _⟩ => exact rhs_row _ _
    | ⟨1, _⟩ => exact (rhs_contr _ _).trans hk)
  rw [el, er]

/-- Entry `(p, q)` of what the body stores: the contraction of row `p` of the block with row `q` of the weights, times the
    scale row at `q`, plus the shift row at `q`. -/
theorem stored (x0 : Vec Ideal S256x2048 .f32) (x1 : Vec Ideal S2048x2048 .bf16) (x2 x3 : Vec Ideal S1x2048 .f32)
    (p : Fin 256) (q : Fin 2048) :
    k0_pay1 (F := Ideal) x0 x1 x2 x3 (ix2 p q)
      = (∑ k : Fin 2048, x0 (ix2 p k) * x1 (ix2 q k)) * x2 (ix2 (0 : Fin 1) q) + x3 (ix2 (0 : Fin 1) q) := by
  unfold k0_pay1
  rw [addf_apply, mulf_apply]
  simp only [shapeCast_self]
  rw [broadcastTo_1b_ab_apply, broadcastTo_1b_ab_apply]
  refine congrArg (· * x2 (ix2 (0 : Fin 1) q) + x3 (ix2 (0 : Fin 1) q)) ?_
  simp only [matmul]
  rw [Ideal.matmul_constant_zero_apply]
  exact contraction (fun i => x0 i) (fun i => x1 i) p q

end Cert.BodyEntry

end
-- ==== Proof.FoldedAffine.lean ====
/-
  A per-column scale followed by an inference batch normalisation, against the same thing folded into one
  multiply-add.

  For an accumulated product `a` and, per column, a scale `σ`, a running mean `μ`, a running variance `v`, a gain `g`
  and a shift `b`, the normalisation computes `g · ((a·σ − μ) / √(v + ε)) + b` (`unfolded`), and the folded form computes
  `a · ((σ·g) · (1/√(v + ε))) + (b − (μ·g) · (1/√(v + ε)))` (`folded`). Here `ε` is the number the 32-bit word
  `0x3727C5AC` denotes, `10995116 · 2⁻⁴⁰`, which is positive. When all six arguments are real numbers and `0 ≤ v`, the
  radicand `v + ε` is a positive real, its root `s` is a positive real, both quotients are products with `1/s`, and the two
  forms are one real number by the field laws (`folded_eq_unfolded`). At `v + ε = 0` the two forms differ on the extended
  reals (division by zero sends `1` to `⊤` and `0` to `⊥`), which is why the variance is taken non-negative.
-/
import Idealize.ShloMosaic.PureOps.Ideal
import Idealize.ShloMosaic.PureOps.Ideal.Laws

noncomputable section

namespace Cert.FoldedAffine

open Idealize.ShloMosaic

/-- The stabiliser added to the variance: the number the word `0x3727C5AC` denotes. -/
abbrev eps : EReal := Ideal.ofBits .f32 0x3727C5AC#32

/-- That number is `10995116 · 2⁻⁴⁰`. -/
theorem eps_eq : eps = (((10995116 : ℝ) * ((2 : ℝ) ^ 40)⁻¹ : ℝ) : EReal) := by
  simp [eps, Ideal.ofBits, Ideal.ieee]

/-- It is a positive real number. -/
theorem eps_real : ∃ e : ℝ, 0 < e ∧ eps = (e : EReal) := ⟨_, by positivity, eps_eq⟩

/-- The normalisation as written: scale, subtract the mean, divide by the root, apply gain and shift. -/
def unfolded (a σ μ v g b : EReal) : EReal := g * Ideal.div (a * σ - μ) (Ideal.sqrt (v + eps)) + b

/-- The same folded into one multiply-add: a combined scale and a combined shift, each through `1/√(v + ε)`. -/
def folded (a σ μ v g b : EReal) : EReal :=
  a * ((σ * g) * Ideal.div 1 (Ideal.sqrt (v + eps))) + (b - (μ * g) * Ideal.div 1 (Ideal.sqrt (v + eps)))

/-- For a non-negative real variance the root of `v + ε` is a nonzero real number. -/
theorem sqrt_real {v : ℝ} (hv : 0 ≤ v) : ∃ s : ℝ, s ≠ 0 ∧ Ideal.sqrt ((v : EReal) + eps) = (s : EReal) := by
  obtain ⟨e, he, hE⟩ := eps_real
  have hpos : 0 < v + e := by linarith
  refine ⟨Real.sqrt (v + e), (Real.sqrt_pos.2 hpos).ne', ?_⟩
  rw [hE, ← EReal.coe_add, Ideal.sqrt_coe, if_neg (not_lt.2 hpos.le)]

/-- On real arguments with a non-negative variance the folded form is the normalisation. -/
theorem folded_eq_unfolded (a σ μ v g b : ℝ) (hv : 0 ≤ v) :
    folded (a : EReal) σ μ v g b = unfolded (a : EReal) σ μ v g b := by
  obtain ⟨s, hs, hS⟩ := sqrt_real hv
  unfold folded unfolded
  rw [hS, Ideal.div_coe hs, Ideal.div_coe hs]
  have h : a * ((σ * g) * (1 * (1 / s))) + (b - (μ * g) * (1 * (1 / s))) = g * ((a * σ - μ) * (1 / s)) + b := by
    field_simp
    ring
  exact_mod_cast h

end Cert.FoldedAffine

end
-- ==== Proof.Prologue.lean ====
/-
  What the host computes before the region: the combined scale, the combined shift, and the weights.

  Before the region is entered the host forms, per column `q`, the combined scale
  `(scale q · gain q) · (1 / √(var q + ε))` and the combined shift `shift q − (mean q · gain q) · (1 / √(var q + ε))`, lays
  each out as a single row, and changes the weights' format, which on extended reals is the identity. So the region finds the
  scale row and the shift row holding those two expressions at `(0, q)`, and the weight array holding the weights
  themselves. The word `0x3F800000` in the quotient is the number one.
-/
import proofs.«179150_j3556232921810_2_alg».proof.Proof.Gen.KernelIdeal.Frame
import proofs.«179150_j3556232921810_2_alg».proof.Proof.FoldedAffine
import Idealize.ShloMosaic.Lib.StableHlo.Run
import Idealize.ShloMosaic.Lib.ValueIdx
import Idealize.ShloMosaic.Lib.ValueLayout
import Idealize.ShloMosaic.PureOps.Ideal
import Idealize.ShloMosaic.PureOps.IdealRules

noncomputable section

namespace Cert.Prologue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The seven inputs on core `c`, as arrays of extended reals: activations, weights, and the five per-column vectors. -/
abbrev acts (c : Dev nD) : S4096x2048.Idx → EReal := m ((c : Thread nD τ).loc main_arg0)
abbrev wts (c : Dev nD) : S2048x2048.Idx → EReal := m ((c : Thread nD τ).loc main_arg1)
abbrev scale (c : Dev nD) : S2048.Idx → EReal := m ((c : Thread nD τ).loc main_arg2)
abbrev mean (c : Dev nD) : S2048.Idx → EReal := m ((c : Thread nD τ).loc main_arg3)
abbrev var (c : Dev nD) : S2048.Idx → EReal := m ((c : Thread nD τ).loc main_arg4)
abbrev gain (c : Dev nD) : S2048.Idx → EReal := m ((c : Thread nD τ).loc main_arg5)
abbrev shift (c : Dev nD) : S2048.Idx → EReal := m ((c : Thread nD τ).loc main_arg6)

/-- `1 / √(v + ε)`, column by column, as the host spells it. -/
def invStd (v : FVec Ideal S2048 .f32) : FVec Ideal S2048 .f32 :=
  Host.divf (F := Ideal) (broadcastInDim S2048 ![] bcast_S_S2048 (constant (F := Ideal) S_ .f32 0x3F800000#32))
    (Host.sqrt (F := Ideal) (addf v (broadcastInDim S2048 ![] bcast_S_S2048 (constant (F := Ideal) S_ .f32 0x3727C5AC#32))))

/-- Read at a column it is the quotient of one by the root of the variance plus `ε`. -/
theorem invStd_apply (v : FVec Ideal S2048 .f32) (q : Fin 2048) :
    invStd v (ix1 q) = Ideal.div 1 (Ideal.sqrt ((v (ix1 q) : EReal) + Cert.FoldedAffine.eps)) := by
  show Ideal.div (Ideal.ofBits .f32 0x3F800000#32) _ = _
  rw [show Ideal.ofBits .f32 0x3F800000#32 = 1 from IdealRules.sign_bit.ideal_onePat .f32]
  rfl

/-- The scale row as the region finds it. -/
theorem scale_row (c : Dev nD) :
    (V m c main_v7 : S1x2048.Idx → EReal)
      = shapeCast S1x2048 (mulf (F := Ideal) (φ := .f32) (mulf (F := Ideal) (φ := .f32) (scale m c) (gain m c)) (invStd (var m c)))
          shapeCasts_S2048_S1x2048 := by
  dsimp only [Gen.V, Gen.hostOps0]
  after_results
  rfl

/-- The shift row as the region finds it. -/
theorem shift_row (c : Dev nD) :
    (V m c main_v11 : S1x2048.Idx → EReal)
      = shapeCast S1x2048 (subf (F := Ideal) (φ := .f32) (shift m c)
          (mulf (F := Ideal) (φ := .f32) (mulf (F := Ideal) (φ := .f32) (mean m c) (gain m c)) (invStd (var m c))))
          shapeCasts_S2048_S1x2048 := by
  dsimp only [Gen.V, Gen.hostOps0]
  after_results
  rfl

/-- Every entry of the weight array the region finds is the weight there: the format change is the identity. -/
theorem weights_apply (c : Dev nD) (i : S2048x2048.Idx) :
    (V m c main_v12 : S2048x2048.Idx → EReal) i = wts m c i := by
  have e : (V m c main_v12 : S2048x2048.Idx → EReal)
      = truncf (F := Ideal) (φ := .f32) .bf16 (wts m c) bitsLt_bf16_f32 := by
    dsimp only [Gen.V, Gen.hostOps0]
    after_results
  rw [e]
  rfl

/-- So the weight array the region finds is the weights. -/
theorem weights_eq (c : Dev nD) : (V m c main_v12 : S2048x2048.Idx → EReal) = wts m c :=
  funext (weights_apply m c)

/-- The activations reach the region as launched. -/
theorem acts_eq (c : Dev nD) : (V m c main_arg0 : S4096x2048.Idx → EReal) = acts m c := V_main_arg0 m c

/-- Entry `(0, q)` of the scale row. -/
theorem scale_row_apply (c : Dev nD) (q : Fin 2048) :
    (V m c main_v7 : S1x2048.Idx → EReal) (ix2 (0 : Fin 1) q)
      = (scale m c (ix1 q) * gain m c (ix1 q)) * Ideal.div 1 (Ideal.sqrt (var m c (ix1 q) + Cert.FoldedAffine.eps)) := by
  rw [scale_row, shapeCast_a_1a_apply, mulf_apply, mulf_apply, invStd_apply]

/-- Entry `(0, q)` of the shift row. -/
theorem shift_row_apply (c : Dev nD) (q : Fin 2048) :
    (V m c main_v11 : S1x2048.Idx → EReal) (ix2 (0 : Fin 1) q)
      = shift m c (ix1 q)
          - (mean m c (ix1 q) * gain m c (ix1 q)) * Ideal.div 1 (Ideal.sqrt (var m c (ix1 q) + Cert.FoldedAffine.eps)) := by
  rw [shift_row, shapeCast_a_1a_apply, subf_apply, mulf_apply, mulf_apply, invStd_apply]

end Cert.Prologue

end
-- ==== Proof.KernelValue.lean ====
/-
  What the region leaves in the output array.

  The grid has 16 points. Point `t` holds rows `256·t … 256·t + 255` of the activations and of the output, and the whole of
  the weights, the scale row and the shift row. So what point `t` writes back is block `t` of ONE function of the four arrays
  the region finds (`rowsTimesWeights`): entry `(r, q)` is the contraction of row `r` of the activations with row `q` of the
  weights, times the scale row at `q`, plus the shift row at `q`. The 16 row blocks cover the `4096 × 2048` array — row `r`
  lies in block `r / 256` —, so the array ends holding that function everywhere.
-/
import proofs.«179150_j3556232921810_2_alg».proof.Proof.Gen.KernelIdeal.Value
import proofs.«179150_j3556232921810_2_alg».proof.Proof.BodyEntry
import proofs.«179150_j3556232921810_2_alg».proof.Proof.Prologue
import Idealize.ShloMosaic.Lib.Pipeline.Value
import Idealize.ShloMosaic.Lib.ValueIdx

noncomputable section

namespace Cert.KernelValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The four arrays the region finds on core `c`, as arrays of extended reals: the activations, the weights in their
    shorter format, the scale row and the shift row. -/
abbrev foundActs (c : Dev nD) : S4096x2048.Idx → EReal := V m c main_arg0
abbrev foundWts (c : Dev nD) : S2048x2048.Idx → EReal := V m c main_v12
abbrev foundScale (c : Dev nD) : S1x2048.Idx → EReal := V m c main_v7
abbrev foundShift (c : Dev nD) : S1x2048.Idx → EReal := V m c main_v11

/-- Entry `(r, q)` of the product of the rows of `X` with the rows of `W`, scaled and shifted by column. -/
def entry (X : S4096x2048.Idx → EReal) (W : S2048x2048.Idx → EReal) (cs cb : S1x2048.Idx → EReal)
    (r : Fin 4096) (q : Fin 2048) : EReal :=
  (∑ k : Fin 2048, X (ix2 r k) * W (ix2 q k)) * cs (ix2 (0 : Fin 1) q) + cb (ix2 (0 : Fin 1) q)

/-- The whole array: every entry by `entry`. -/
def rowsTimesWeights (X : S4096x2048.Idx → EReal) (W : S2048x2048.Idx → EReal) (cs cb : S1x2048.Idx → EReal) :
    S4096x2048.Idx → EReal := fun i => entry X W cs cb (i 0) (i 1)

theorem zero_offsets : (![0, 0] : Fin 2 → Nat) = fun _ => 0 := funext fun a => by fin_cases a <;> rfl

/-- The printed index maps over the 16 points: the activations' block moves with the output's along the rows, every other
    block index is zero, and the output's row-block index is below 16. -/
theorem block_indices : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every row block is some point's. -/
theorem block_onto : ∀ b : Fin 16, ∃ t : Fin cfg0.N, win0_4.index t = ![b.val, 0] :=
  (by decide +kernel : ∀ b : Fin 16, ∃ t : Fin grid0.N, win0_4.index t = ![b.val, 0])

/-- WHAT POINT `t` WRITES BACK is block `t` of `rowsTimesWeights` of the four arrays the region finds. -/
theorem flushed_eq (c : Dev nD) (t : Fin cfg0.N) :
    (dats m 0 c).flushed 4 t = ((cfg0.win 4).blk t).view.read (Elt Ideal)
      (rowsTimesWeights (V m c main_arg0) (V m c main_v12) (V m c main_v7) (V m c main_v11)) := by
  show (cfg0.win 4).cut (grid0.coords t) ((dats m 0 c).after 4 t) = _
  rw [after0_4]
  unfold out0_4
  rw [View.canon_unit_zero zero_offsets]
  simp only [View.ld_unit_zero (S := S256x2048) zero_offsets, View.ld_unit_zero (S := S2048x2048) zero_offsets,
    View.ld_unit_zero (S := S1x2048) zero_offsets]
  obtain ⟨e0, e1, e2, e3, e4, e5, e6, e7, e8, e9⟩ := block_indices t
  funext j
  obtain ⟨p, q, rfl⟩ : ∃ (p : Fin 256) (q : Fin 2048), j = ix2 p q := ⟨j 0, j 1, eq_ix2 j⟩
  show k0_pay1 (iblk m c 0 t) (iblk m c 1 t) (iblk m c 2 t) (iblk m c 3 t) (ix2 p q)
    = rowsTimesWeights (V m c main_arg0) (V m c main_v12) (V m c main_v7) (V m c main_v11)
        (((cfg0.win 4).blk t).view.emb (ix2 p q))
  refine (Cert.BodyEntry.stored (iblk m c 0 t) (iblk m c 1 t) (iblk m c 2 t) (iblk m c 3 t) p q).trans ?_
  have hp : p.val < 256 := p.isLt
  have hq : q.val < 2048 := q.isLt
  -- the array row under entry `p` of block `t`
  obtain ⟨r, hr⟩ : ∃ r : Fin 4096, r.val = win0_4.index t (0 : Fin 2) * 256 + p.val := ⟨⟨_, by omega⟩, rfl⟩
  have iout : ((cfg0.win 4).blk t).view.emb (ix2 p q) = ix2 r q := by
    funext a; apply Fin.ext
    match a with
    | ⟨0, _⟩ => show win0_4.index t (0 : Fin 2) * 256 + 1 * p.val = r.val; omega
    | ⟨1, _⟩ => show win0_4.index t (1 : Fin 2) * 2048 + 1 * q.val = q.val; omega
  have i0 (k : Fin 2048) : ((cfg0.win 0).blk t).view.emb (ix2 p k) = ix2 r k := by
    funext a; apply Fin.ext
    match a with
    | ⟨0, _⟩ => show win0_0.index t (0 : Fin 2) * 256 + 1 * p.val = r.val; omega
    | ⟨1, _⟩ => show win0_0.index t (1 : Fin 2) * 2048 + 1 * k.val = k.val; omega
  have i1 (k : Fin 2048) : ((cfg0.win 1).blk t).view.emb (ix2 q k) = ix2 q k := by
    funext a; apply Fin.ext
    match a with
    | ⟨0, _⟩ => show win0_1.index t (0 : Fin 2) * 2048 + 1 * q.val = q.val; omega
    | ⟨1, _⟩ => show win0_1.index t (1 : Fin 2) * 2048 + 1 * k.val = k.val; omega
  have i2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 2048 + 1 * q.val = q.val; omega
  have i3 : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 2048 + 1 * q.val = q.val; omega
  -- each input block read where the output block's rectangle says
  have b0 (k : Fin 2048) : iblk m c 0 t (ix2 p k) = foundActs m c (ix2 r k) := by
    show foundActs m c (((cfg0.win 0).blk t).view.emb (ix2 p k)) = _
    rw [i0 k]
  have b1 (k : Fin 2048) : iblk m c 1 t (ix2 q k) = foundWts m c (ix2 q k) := by
    show foundWts m c (((cfg0.win 1).blk t).view.emb (ix2 q k)) = _
    rw [i1 k]
  have b2 : iblk m c 2 t (ix2 (0 : Fin 1) q) = foundScale m c (ix2 (0 : Fin 1) q) := by
    show foundScale m c (((cfg0.win 2).blk t).view.emb (ix2 (0 : Fin 1) q)) = _
    rw [i2]
  have b3 : iblk m c 3 t (ix2 (0 : Fin 1) q) = foundShift m c (ix2 (0 : Fin 1) q) := by
    show foundShift m c (((cfg0.win 3).blk t).view.emb (ix2 (0 : Fin 1) q)) = _
    rw [i3]
  rw [iout, b2, b3]
  show _ = entry (foundActs m c) (foundWts m c) (foundScale m c) (foundShift m c) r q
  unfold entry
  refine congrArg (· * foundScale m c (ix2 (0 : Fin 1) q) + foundShift m c (ix2 (0 : Fin 1) q)) ?_
  exact Finset.sum_congr rfl fun k _ => by rw [b0 k, b1 k]

/-- An index of the array is in point `t`'s block iff each coordinate is in the block's range on its axis. -/
theorem mem_block (t : Fin cfg0.N) (i : S4096x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v13).slice (win0_4.rect t)).set ↔ _
  rw [View.set_slice_whole, Rect.mem_set_unit]
  exact Iff.rfl

/-- The 16 row blocks cover the array: row `r` lies in block `r / 256`. -/
theorem covered (i : S4096x2048.Idx) :
    ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ := block_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 2048 ≤ (i 1).val ∧ (i 1).val < win0_4.index t (1 : Fin 2) * 2048 + 2048
    omega

/-- THE ARRAY after the run: `rowsTimesWeights` of the four arrays the region finds, everywhere. -/
theorem final (c : Dev nD) :
    (dats m 0 c).arrAt 4 cfg0.N
      = rowsTimesWeights (V m c main_arg0) (V m c main_v12) (V m c main_v7) (V m c main_v11) :=
  (dats m 0 c).arrAt_eq_of_cover 4 _ (fun t _ => flushed_eq m c t) covered

/-- Entry `(r, q)` of that array in terms of the inputs: the contraction of the activations' row `r` with the weights' row
    `q`, times the combined scale of column `q`, plus the combined shift of column `q` — the folded normalisation. -/
theorem final_apply (c : Dev nD) (r : Fin 4096) (q : Fin 2048) :
    rowsTimesWeights (V m c main_arg0) (V m c main_v12) (V m c main_v7) (V m c main_v11) (ix2 r q)
      = Cert.FoldedAffine.folded (∑ k : Fin 2048, Cert.Prologue.acts m c (ix2 r k) * Cert.Prologue.wts m c (ix2 q k))
          (Cert.Prologue.scale m c (ix1 q)) (Cert.Prologue.mean m c (ix1 q)) (Cert.Prologue.var m c (ix1 q))
          (Cert.Prologue.gain m c (ix1 q)) (Cert.Prologue.shift m c (ix1 q)) := by
  show entry (V m c main_arg0) (V m c main_v12) (V m c main_v7) (V m c main_v11) r q = _
  rw [Cert.Prologue.acts_eq, Cert.Prologue.weights_eq]
  unfold entry Cert.FoldedAffine.folded
  rw [Cert.Prologue.scale_row_apply, Cert.Prologue.shift_row_apply]

/-- The run, read: the output array at `rowsTimesWeights`, the arguments unchanged. -/
theorem run : θ_run defs (onTc (τ := τ) (main (F := Ideal))) ⟨m, fun _ => 0, ρ⟩ fun r => ∀ c : Dev nD,
      r.2.mem ((c : Thread nD τ).loc main_v13)
        = rowsTimesWeights (V m c main_arg0) (V m c main_v12) (V m c main_v7) (V m c main_v11)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelValue

end
-- ==== Proof.ReferenceEntry.lean ====
/-
  The reference's result, read at one entry.

  The reference contracts row `p` of the activations with row `q` of the weights, multiplies by the scale of column `q`,
  subtracts the running mean of column `q`, divides by the root of that column's running variance plus `ε`, multiplies by
  the gain and adds the shift. Each per-column vector reaches the `4096 × 2048` array by being laid out as one row and
  repeated over the rows, so at `(p, q)` it reads its entry `q`. The result at `(p, q)` is therefore the normalisation
  `unfolded` of the contraction and the five column values.
-/
import proofs.«179150_j3556232921810_2_alg».proof.Proof.Gen.ReferenceIdeal.Read
import proofs.«179150_j3556232921810_2_alg».proof.Proof.FoldedAffine
import Idealize.ShloMosaic.Lib.ValueIdx

noncomputable section

namespace Cert.ReferenceEntry

open Idealize.ShloMosaic Idealize.ShloMosaic.ValueIdx Cert.ReferenceIdeal Cert.ReferenceIdeal.Read

/-- Entry `(p, q)` of the reference's result. -/
theorem result_apply (x0 : FVec Ideal S4096x2048 .f32) (x1 : FVec Ideal S2048x2048 .f32)
    (x2 x3 x4 x5 x6 : FVec Ideal S2048 .f32) (p : Fin 4096) (q : Fin 2048) :
    val_main_v18 (F := Ideal) x0 x1 x2 x3 x4 x5 x6 (ix2 p q)
      = Cert.FoldedAffine.unfolded (∑ k : Fin 2048, x0 (ix2 p k) * x1 (ix2 q k))
          (x2 (ix1 q)) (x3 (ix1 q)) (x4 (ix1 q)) (x5 (ix1 q)) (x6 (ix1 q)) := by
  have il (k : Fin 2048) : lidx_main_v0 (ix2 p q) k = ix2 p k :=
    funext fun a => Fin.ext (by match a with | ⟨0, _⟩ => rfl | ⟨1, _⟩ => rfl)
  have ir (k : Fin 2048) : ridx_main_v0 (ix2 p q) k = ix2 q k :=
    funext fun a => Fin.ext (by match a with | ⟨0, _⟩ => rfl | ⟨1, _⟩ => rfl)
  have e2 : idx_main_v1 (idx_main_v2 (ix2 p q)) = ix1 q := funext fun a => Fin.ext (by match a with | ⟨0, _⟩ => rfl)
  have e5 : idx_main_v4 (idx_main_v5 (ix2 p q)) = ix1 q := funext fun a => Fin.ext (by match a with | ⟨0, _⟩ => rfl)
  have e11 : idx_main_v10 (idx_main_v11 (ix2 p q)) = ix1 q := funext fun a => Fin.ext (by match a with | ⟨0, _⟩ => rfl)
  have e14 : idx_main_v13 (idx_main_v14 (ix2 p q)) = ix1 q := funext fun a => Fin.ext (by match a with | ⟨0, _⟩ => rfl)
  have e17 : idx_main_v16 (idx_main_v17 (ix2 p q)) = ix1 q := funext fun a => Fin.ext (by match a with | ⟨0, _⟩ => rfl)
  rw [val_main_v18_apply, val_main_v15_apply, val_main_v14_apply, val_main_v13_apply, val_main_v12_apply,
    val_main_v6_apply, val_main_v3_apply, val_main_v0_apply, val_main_v2_apply, val_main_v1_apply,
    val_main_v5_apply, val_main_v4_apply, val_main_v11_apply, val_main_v10_apply, val_main_v9_apply,
    val_main_v8_apply, val_main_v7_apply, val_main_cst_apply, val_main_v17_apply, val_main_v16_apply]
  simp only [il, ir, e2, e5, e11, e14, e17]
  rfl

end Cert.ReferenceEntry

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.Domain.lean ====
/-
  What the precondition says about the seven inputs.

  The precondition is a conjunction of eight tests, each an `all` over one input: for each of the seven inputs that every
  entry's absolute value is below `+∞`, and for the running variance that every entry is at least `0`. Read at the
  extended reals the first seven say that every entry of every input is a real number, and the eighth that every variance
  entry is non-negative. The conjunction is a left-nested chain of `and`s, taken apart here one link at a time.
-/
import proofs.«179150_j3556232921810_2_alg».proof.Pre_finite_inputs
import proofs.«179150_j3556232921810_2_alg».proof.Proof.LibFiniteInputs
import proofs.«179150_j3556232921810_2_alg».proof.Proof.LibERealSum

noncomputable section

namespace Cert.Domain

open Idealize.ShloMosaic Cert.Pre_finite_inputs Cert.LibERealSum

variable [Facts]

/-- One entry: the comparison `a ≥ 0` coming out 1 says `0 ≤ a`. -/
theorem nonneg_of_cmp_one (a : Ideal .f32)
    (h : FloatOps.cmpf .oge a (FloatOps.ofBits (F := Ideal) .f32 0x00000000#32) = 1#1) : (0 : EReal) ≤ a := by
  have h2 : BitVec.ofBool (decide (Ideal.ofBits .f32 0x00000000#32 ≤ (a : EReal))) = 1#1 := h
  have h' : Ideal.ofBits .f32 0x00000000#32 ≤ (a : EReal) := by
    by_contra hn
    rw [decide_eq_false hn] at h2
    exact absurd h2 (by decide)
  rwa [Ideal.ofBits_zero_f32] at h'

/-- Under the precondition every entry of every input is a real number and every variance entry is non-negative. -/
theorem of_pre (x : FVec Ideal S4096x2048 .f32) (w : FVec Ideal S2048x2048 .f32)
    (scale mean var gain shift : FVec Ideal S2048 .f32)
    (h : fn (F := Ideal) x w scale mean var gain shift = fun _ => 1#1) :
    (∀ i, IsReal (x i)) ∧ (∀ i, IsReal (w i)) ∧ (∀ i, IsReal (scale i)) ∧ (∀ i, IsReal (mean i))
      ∧ (∀ i, IsReal (var i)) ∧ (∀ i, IsReal (gain i)) ∧ (∀ i, IsReal (shift i)) ∧ (∀ i, (0 : EReal) ≤ var i) := by
  have h0 := congrFun h ValueIdx.ix0
  dsimp only [fn, fn_part1, fn_part2] at h0
  have l7 : IntOp.andi _ _ = 1#1 := h0
  obtain ⟨r6, t7⟩ := IntOp.andi_eq_one.mp l7
  have l6 : IntOp.andi _ _ = 1#1 := r6
  obtain ⟨r5, t6⟩ := IntOp.andi_eq_one.mp l6
  have l5 : IntOp.andi _ _ = 1#1 := r5
  obtain ⟨r4, t5⟩ := IntOp.andi_eq_one.mp l5
  have l4 : IntOp.andi _ _ = 1#1 := r4
  obtain ⟨r3, t4⟩ := IntOp.andi_eq_one.mp l4
  have l3 : IntOp.andi _ _ = 1#1 := r3
  obtain ⟨r2, t3⟩ := IntOp.andi_eq_one.mp l3
  have l2 : IntOp.andi _ _ = 1#1 := r2
  obtain ⟨r1, t2⟩ := IntOp.andi_eq_one.mp l2
  have l1 : IntOp.andi _ _ = 1#1 := r1
  obtain ⟨t0, t1⟩ := IntOp.andi_eq_one.mp l1
  refine ⟨Cert.LibFiniteInputs.all_real x Facts.bcast_S_S4096x2048 Facts.reducesTo_S4096x2048_S_d0_1 Facts.h_S_ t0,
    Cert.LibFiniteInputs.all_real w Facts.bcast_S_S2048x2048 Facts.reducesTo_S2048x2048_S_d0_1 Facts.h_S_ t1,
    Cert.LibFiniteInputs.all_real scale Facts.bcast_S_S2048 Facts.reducesTo_S2048_S_d0 Facts.h_S_ t2,
    Cert.LibFiniteInputs.all_real mean Facts.bcast_S_S2048 Facts.reducesTo_S2048_S_d0 Facts.h_S_ t3,
    Cert.LibFiniteInputs.all_real var Facts.bcast_S_S2048 Facts.reducesTo_S2048_S_d0 Facts.h_S_ t4,
    Cert.LibFiniteInputs.all_real gain Facts.bcast_S_S2048 Facts.reducesTo_S2048_S_d0 Facts.h_S_ t5,
    Cert.LibFiniteInputs.all_real shift Facts.bcast_S_S2048 Facts.reducesTo_S2048_S_d0 Facts.h_S_ t6, fun i => ?_⟩
  exact nonneg_of_cmp_one (var i) (Host.reduce_andi_all _ _ Facts.reducesTo_S2048_S_d0 Facts.h_S_ ValueIdx.ix0 t7 i)

end Cert.Domain

end
-- ==== Proof.Bridge.lean ====
/-
  Under the precondition the folded form and the normalisation agree, entry by entry.

  At entry `(r, q)` both programs start from the same contraction, the sum over `k` of `x (r, k) · w (q, k)`, and the same
  five values of column `q`. The precondition makes every one of these a real number — the contraction as a finite sum of
  products of reals — and the variance non-negative, which is exactly what the law `folded = unfolded` needs: the law moves
  a factor across a difference and cancels through `1/√(v + ε)`, and both steps fail at the infinities and at a zero root.
-/
import proofs.«179150_j3556232921810_2_alg».proof.Proof.FoldedAffine
import proofs.«179150_j3556232921810_2_alg».proof.Proof.Domain
import Idealize.ShloMosaic.Lib.ValueIdx

noncomputable section

namespace Cert.Bridge

open Idealize.ShloMosaic Idealize.ShloMosaic.ValueIdx Cert.Pre_finite_inputs Cert.LibERealSum

variable [Facts]

/-- Under the precondition, at every entry the folded multiply-add of the contraction is its normalisation. -/
theorem folded_eq_unfolded (x : FVec Ideal S4096x2048 .f32) (w : FVec Ideal S2048x2048 .f32)
    (scale mean var gain shift : FVec Ideal S2048 .f32)
    (hpre : fn (F := Ideal) x w scale mean var gain shift = fun _ => 1#1) (r : Fin 4096) (q : Fin 2048) :
    Cert.FoldedAffine.folded (∑ k : Fin 2048, (x (ix2 r k) : EReal) * (w (ix2 q k) : EReal))
        (scale (ix1 q)) (mean (ix1 q)) (var (ix1 q)) (gain (ix1 q)) (shift (ix1 q))
      = Cert.FoldedAffine.unfolded (∑ k : Fin 2048, (x (ix2 r k) : EReal) * (w (ix2 q k) : EReal))
        (scale (ix1 q)) (mean (ix1 q)) (var (ix1 q)) (gain (ix1 q)) (shift (ix1 q)) := by
  obtain ⟨hx, hw, hsc, hmu, hva, hga, hbe, hnn⟩ := Cert.Domain.of_pre x w scale mean var gain shift hpre
  obtain ⟨a, ha⟩ : IsReal (∑ k : Fin 2048, (x (ix2 r k) : EReal) * (w (ix2 q k) : EReal)) :=
    IsReal.sum _ _ fun k _ => (hx _).mul (hw _)
  obtain ⟨σ, hσ⟩ := hsc (ix1 q)
  obtain ⟨μ, hμ⟩ := hmu (ix1 q)
  obtain ⟨v, hv⟩ := hva (ix1 q)
  obtain ⟨g, hg⟩ := hga (ix1 q)
  obtain ⟨b, hb⟩ := hbe (ix1 q)
  have hv0 : 0 ≤ v := by
    have h := hnn (ix1 q)
    rw [hv] at h
    exact_mod_cast h
  rw [ha, hσ, hμ, hv, hg, hb]
  exact Cert.FoldedAffine.folded_eq_unfolded a σ μ v g b hv0

end Cert.Bridge

end
-- ==== Proof.lean ====
/-
  A linear layer with a per-column scale and an inference batch normalisation, computed two ways.

  Both programs start from `acc (r, q) = Σ_k x (r, k) · w (q, k)`, the activations' row `r` against the weights' row `q`. The
  reference then computes `gain · ((acc · scale − mean) / √(var + ε)) + shift`, column by column. The kernel first folds
  the five per-column vectors into a combined scale `(scale · gain) · (1/√(var + ε))` and a combined shift
  `shift − (mean · gain) · (1/√(var + ε))` on the host, then, in 16 blocks of 256 rows, multiplies the block by the weights
  and applies `acc · combined scale + combined shift`. Shortening the operands' format on the way into the product is the
  identity on extended reals, and a product accumulated from zero is the same sum as the reference's.

  The two results are one function of the inputs exactly where the per-column law
  `a·((σ·g)·(1/s)) + (b − (μ·g)·(1/s)) = g·((a·σ − μ)/s) + b` holds: for real `a, σ, μ, g, b` and a real nonzero root `s`. The
  precondition gives this: every input entry is a real number, so `acc` is a finite sum of products of reals, and every
  running variance is non-negative, so `var + ε` is positive and its root a positive real. (At `var + ε = 0` the two sides
  differ on the extended reals, since `1/0 = ⊤` while `0/0 = ⊥`.)

  Modules: `FoldedAffine` the law; `Domain` what the precondition says; `BodyEntry` the stored block at an entry;
  `Prologue` the rows the host prepares; `KernelValue` the output array after the 16 points; `ReferenceEntry` the reference at
  an entry; `Bridge` the law under the precondition. The three runs (that each program terminates and leaves its arguments
  as they were) and the reference's value are the generated modules'.
-/
import proofs.«179150_j3556232921810_2_alg».proof.Defs
import proofs.«179150_j3556232921810_2_alg».proof.Proof.Gen.Kernel
import proofs.«179150_j3556232921810_2_alg».proof.Proof.Gen.Kernel.Skeleton
import proofs.«179150_j3556232921810_2_alg».proof.Proof.Gen.Kernel.Launch
import proofs.«179150_j3556232921810_2_alg».proof.Proof.Gen.Kernel.Points
import proofs.«179150_j3556232921810_2_alg».proof.Proof.Gen.Kernel.Frame
import proofs.«179150_j3556232921810_2_alg».proof.Proof.Gen.KernelIdeal
import proofs.«179150_j3556232921810_2_alg».proof.Proof.Gen.KernelIdeal.Skeleton
import proofs.«179150_j3556232921810_2_alg».proof.Proof.Gen.KernelIdeal.Launch
import proofs.«179150_j3556232921810_2_alg».proof.Proof.Gen.KernelIdeal.Points
import proofs.«179150_j3556232921810_2_alg».proof.Proof.Gen.KernelIdeal.Frame
import proofs.«179150_j3556232921810_2_alg».proof.Proof.Gen.ReferenceIdeal
import proofs.«179150_j3556232921810_2_alg».proof.Proof.Gen.Pre_finite_inputs
import proofs.«179150_j3556232921810_2_alg».proof.Proof.Gen.KernelIdeal.Value
import proofs.«179150_j3556232921810_2_alg».proof.Proof.Gen.ReferenceIdeal.Run
import proofs.«179150_j3556232921810_2_alg».proof.Proof.Gen.ReferenceIdeal.Read
import proofs.«179150_j3556232921810_2_alg».proof.Proof.KernelValue
import proofs.«179150_j3556232921810_2_alg».proof.Proof.ReferenceEntry
import proofs.«179150_j3556232921810_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the extended reals rewrote none of its operations. -/
theorem preserves : Cert.preserves_Kernel_KernelIdeal := trivial

/-- From memories agreeing on the seven inputs, the kernel's output array and the reference's result are equal entry by
    entry: the folded multiply-add of the contraction against its normalisation, under the precondition. -/
theorem algebraic : Cert.algebraic_KernelIdeal_ReferenceIdeal := by
  intro m ρ m' ρ' hpre hagree
  refine ⟨fun c => Cert.KernelValue.rowsTimesWeights (Cert.KernelIdeal.Gen.V m c Cert.KernelIdeal.main_arg0)
      (Cert.KernelIdeal.Gen.V m c Cert.KernelIdeal.main_v12) (Cert.KernelIdeal.Gen.V m c Cert.KernelIdeal.main_v7)
      (Cert.KernelIdeal.Gen.V m c Cert.KernelIdeal.main_v11), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2, Cert.ReferenceIdeal.Read.val_main_v18_eq]
  funext i
  obtain ⟨r, q, rfl⟩ : ∃ (r : Fin 4096) (q : Fin 2048), i = ix2 r q := ⟨i 0, i 1, eq_ix2 i⟩
  show _ = Cert.KernelValue.rowsTimesWeights (Cert.KernelIdeal.Gen.V m c Cert.KernelIdeal.main_arg0)
    (Cert.KernelIdeal.Gen.V m c Cert.KernelIdeal.main_v12) (Cert.KernelIdeal.Gen.V m c Cert.KernelIdeal.main_v7)
    (Cert.KernelIdeal.Gen.V m c Cert.KernelIdeal.main_v11) (ix2 r q)
  rw [Cert.ReferenceEntry.result_apply, Cert.KernelValue.final_apply]
  exact (Cert.Bridge.folded_eq_unfolded _ _ _ _ _ _ _ (hpre c) r q).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
